-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x64 : Shape := ⟨2, ![100000, 64]⟩
abbrev S2x1000000 : Shape := ⟨2, ![2, 1000000]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S100000 32) (main_arg1 : FVec F S100000x64 .f32) (main_arg2 : IVec S2x1000000 32) (main_arg3 : FVec F S128x128 .f32) (main_arg4 : FVec F S128 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000 : Shape := ⟨1, ![100000]⟩
abbrev S100000x64 : Shape := ⟨2, ![100000, 64]⟩
abbrev S2x1000000 : Shape := ⟨2, ![2, 1000000]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S128x64 : Shape := ⟨2, ![128, 64]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 77
  | .vmem => 9
  | .smem => 0
  | _ => 0

abbrev bufTy : (tb : Table) → Fin (tcTables nBuf tb) → BufTy
  | .hbm, ⟨0, _⟩ => ⟨S100000, .i32⟩
  | .hbm, ⟨1, _⟩ => ⟨S100000x64, .f32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000, .f32⟩
  | .hbm, ⟨40, _⟩ => ⟨S1000000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S1000000x1, .i32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x64, .f32⟩
  | .hbm, ⟨62, _⟩ => ⟨S_, .i32⟩
  | .hbm, ⟨63, _⟩ => ⟨S100000, .i32⟩
  | .hbm, ⟨64, _⟩ => ⟨S100000, .i1⟩
  | .hbm, ⟨65, _⟩ => ⟨S_, .i32⟩
  | .hbm, ⟨66, _⟩ => ⟨S100000, .i32⟩
  | .hbm, ⟨67, _⟩ => ⟨S100000, .i32⟩
  | .hbm, ⟨68, _⟩ => ⟨S100000, .i32⟩
  | .hbm, ⟨69, _⟩ => ⟨S100000x1, .i32⟩
  | .hbm, ⟨70, _⟩ => ⟨S100000x64, .f32⟩
  | .hbm, ⟨71, _⟩ => ⟨S128x64, .f32⟩
  | .hbm, ⟨72, _⟩ => ⟨S64x128, .f32⟩
  | .hbm, ⟨73, _⟩ => ⟨S128x64, .f32⟩
  | .hbm, ⟨74, _⟩ => ⟨S64x128, .f32⟩
  | .hbm, ⟨75, _⟩ => ⟨S1x128, .f32⟩
  | .hbm, ⟨76, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x128_S128x64_0_0 : S128x128.Slices ![0, 0] S128x64
  transposes_S128x64_S64x128_1_0 : S128x64.Transposes [1, 0] S64x128
  slices_S128x128_S128x64_0_64 : S128x128.Slices ![0, 64] S128x64
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S100000x1_S100000x64_1_0_n_n_0_1_164_wf : GatherDims.WF S100000x64 S100000x1 S100000x64 [1] [0] [] [0] [] 1 ![1, 64]
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v44) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000 : Shape := ⟨1, ![100000]⟩
abbrev S100000x64 : Shape := ⟨2, ![100000, 64]⟩
abbrev S2x1000000 : Shape := ⟨2, ![2, 1000000]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x64, .f32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S1x1000000, .i32⟩
  | .hbm, ⟨6, _⟩ => ⟨S1000000, .i32⟩
  | .hbm, ⟨7, _⟩ => ⟨S1x1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000, .f32⟩
  | .hbm, ⟨40, _⟩ => ⟨S1000000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S1000000x1, .i32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x64, .f32⟩
  | .hbm, ⟨62, _⟩ => ⟨S_, .i32⟩
  | .hbm, ⟨63, _⟩ => ⟨S100000, .i32⟩
  | .hbm, ⟨64, _⟩ => ⟨S100000, .i1⟩
  | .hbm, ⟨65, _⟩ => ⟨S_, .i32⟩
  | .hbm, ⟨66, _⟩ => ⟨S100000, .i32⟩
  | .hbm, ⟨67, _⟩ => ⟨S100000, .i32⟩
  | .hbm, ⟨68, _⟩ => ⟨S100000, .i32⟩
  | .hbm, ⟨69, _⟩ => ⟨S100000x1, .i32⟩
  | .hbm, ⟨70, _⟩ => ⟨S100000x64, .f32⟩
  | .hbm, ⟨71, _⟩ => ⟨S100000x128, .f32⟩
  | .hbm, ⟨72, _⟩ => ⟨S128x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_cst : Ref sig .tc := ⟨.hbm, 77, rfl⟩
abbrev main_call0_v0 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S100000x1_S100000x64_1_0_n_n_0_1_164_wf : GatherDims.WF S100000x64 S100000x1 S100000x64 [1] [0] [] [0] [] 1 ![1, 64]
  dot_S100000x128_S128x128_S100000x128_1_0_0_1_n_n_wf : DotDims.WF S100000x128 S128x128 S100000x128 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseLayer.lean ====
/-
  The dense layer of the encoder, as one function of its four arrays, and the law that joins its two spellings.

  For two row arrays `s`, `n` (each 100000 × 64: a node's own features, and the mean of its neighbours'), a
  weight `W` (128 × 128) and a bias `b` (128), entry (p, q) of the layer is

      max ( Σ_{k<64} s[p,k] · W[q,k]  +  Σ_{k<64} n[p,k] · W[q,64+k]  +  b[q] , 0 ).

  One program contracts the 128 columns of the row-wise concatenation of `s` and `n` against row `q` of `W`
  in one sum; the other contracts the two halves separately and adds the results. A sum of 128 = 64 + 64 terms
  is the sum of the first 64 plus the sum of the last 64 in every commutative monoid (`sum_halves`), so the two
  agree on all extended reals, the infinities included: nothing but the associativity and commutativity of
  addition is used, and no entry needs to be finite.
-/
import Idealize.ShloMosaic.Lib.ValueIdx
import Idealize.ShloMosaic.PureOps.Ideal.Laws

noncomputable section

open scoped BigOperators

namespace Cert.Dense

open Idealize.ShloMosaic Idealize.ShloMosaic.ValueIdx

/-- The shapes of the layer's arrays. -/
abbrev Rows : Shape := ⟨2, ![100000, 64]⟩
abbrev Weight : Shape := ⟨2, ![128, 128]⟩
abbrev Bias : Shape := ⟨1, ![128]⟩
abbrev Out : Shape := ⟨2, ![100000, 128]⟩

/-- Column `k` of the weight's first half, and column `64 + k` of its second half. -/
abbrev lo (k : Fin 64) : Fin 128 := Fin.castAdd 64 k
abbrev hi (k : Fin 64) : Fin 128 := Fin.natAdd 64 k

theorem lo_val (k : Fin 64) : (lo k).val = k.val := rfl
theorem hi_val (k : Fin 64) : (hi k).val = 64 + k.val := rfl

/-- Entry (p, q) of the layer: the two half contractions, the bias, the positive part. -/
def entry (s n : Rows.Idx → EReal) (W : Weight.Idx → EReal) (b : Bias.Idx → EReal) (p : Fin 100000) (q : Fin 128) : EReal :=
  max ((∑ k : Fin 64, s (ix2 p k) * W (ix2 q (lo k))) + (∑ k : Fin 64, n (ix2 p k) * W (ix2 q (hi k))) + b (ix1 q)) 0

/-- The layer as an array. -/
def layer (s n : Rows.Idx → EReal) (W : Weight.Idx → EReal) (b : Bias.Idx → EReal) : Out.Idx → EReal :=
  fun i => entry s n W b (i 0) (i 1)

theorem layer_apply (s n : Rows.Idx → EReal) (W : Weight.Idx → EReal) (b : Bias.Idx → EReal) (p : Fin 100000) (q : Fin 128) :
    layer s n W b (ix2 p q) = entry s n W b p q := rfl

/-- A sum over 128 indices is the sum over the first 64 plus the sum over the last 64. -/
theorem sum_halves {M : Type*} [AddCommMonoid M] (f : Fin 128 → M) :
    ∑ k : Fin 128, f k = (∑ k : Fin 64, f (lo k)) + ∑ k : Fin 64, f (hi k) :=
  Fin.sum_univ_add (a := 64) (b := 64) f

end Cert.Dense

end
-- ==== Proof.BodyEntry.lean ====
/-
  One entry of what the kernel body stores, at the exact values.

  The body loads a 5000 × 64 block of each row array, the two 64 × 128 halves of the transposed weight and the
  1 × 128 bias row; narrows the four matrices to bf16 (the identity on exact values); multiplies each row block by
  its weight half into a zero accumulator; adds the two products, adds the bias row broadcast down the 5000 rows,
  and takes the maximum with zero. Read at row `p`, column `q` of the block this is

      max ( Σ_{k<64} x₀[p,k] · w₀[k,q]  +  Σ_{k<64} x₁[p,k] · w₁[k,q]  +  b[0,q] , 0 ):

  a matrix product into a zero accumulator is the plain sum over the one contracted axis, a shape cast to the
  same shape and a change of format change nothing, and the broadcast reads the bias row at column `q`.
-/
import proofs.«178424_j34557306863777_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

local notation "D" => dot_S5000x64_S64x128_S5000x128_1_0_0_1_n_n

/-- The left operand's row coordinate is the output's row. -/
theorem lhs_row (i : S5000x128.Idx) (r : (D).contr.Idx) : ((D).lhsIdx i r 0).val = (i 0).val := by
  unfold DotDims.lhsIdx
  rw [dif_neg (show ¬(0 : Fin S5000x64.rank) ∈ (D).lhsBatch by decide), dif_pos (show (0 : Fin S5000x64.rank) ∈ (D).lhsNonContracting by decide)]
  rfl

/-- The right operand's column coordinate is the output's column. -/
theorem rhs_col (i : S5000x128.Idx) (r : (D).contr.Idx) : ((D).rhsIdx i r 1).val = (i 1).val := by
  unfold DotDims.rhsIdx
  rw [dif_neg (show ¬(1 : Fin S64x128.rank) ∈ (D).rhsBatch by decide), dif_pos (show (1 : Fin S64x128.rank) ∈ (D).rhsNonContracting by decide)]
  rfl

/-- A 5000 × 64 block times a 64 × 128 block into a zero accumulator, at (p, q): the sum over the 64 contracted
    positions of the row's entry times the column's. -/
theorem product_entry {φ₁ φ₂ : FTy} (x : FVec Ideal S5000x64 φ₁) (w : FVec Ideal S64x128 φ₂) (p : Fin 5000) (q : Fin 128) :
    matmul (D) none x w (constant (F := Ideal) S5000x128 .f32 0x00000000#32) (ix2 p q) = ∑ k : Fin 64, x (ix2 p k) * w (ix2 k q) := by
  simp only [matmul]
  rw [Ideal.matmul_constant_zero_apply, ← Equiv.sum_comp (contrEquiv1 (D) 64 rfl rfl).symm]
  refine Finset.sum_congr rfl fun k _ => ?_
  have hk := contrEquiv1_symm_val (D) 64 rfl rfl k
  have el : (D).lhsIdx (ix2 p q) ((contrEquiv1 (D) 64 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p q) ((contrEquiv1 (D) 64 rfl rfl).symm k) = ix2 k q := funext fun a => Fin.ext (by
    match a with
    | ⟨0, _⟩ => exact ((D).rhsIdx_val_of_single rfl _ _).trans hk
    | ⟨1, _⟩ => exact rhs_col _ _)
  rw [el, er]

/-- THE BODY'S STORED VALUE at (p, q) of the block, from the five loaded blocks. -/
theorem stored_entry (x0 x1 : Vec Ideal S5000x64 .f32) (w0 w1 : Vec Ideal S64x128 .f32) (b : Vec Ideal S1x128 .f32)
    (p : Fin 5000) (q : Fin 128) :
    k0_pay1 (F := Ideal) x0 x1 w0 w1 b (ix2 p q)
      = max ((∑ k : Fin 64, x0 (ix2 p k) * w0 (ix2 k q)) + (∑ k : Fin 64, x1 (ix2 p k) * w1 (ix2 k q)) + b (ix2 (0 : Fin 1) q)) 0 := by
  unfold k0_pay1
  rw [maximumf_apply, addf_apply, addf_apply, product_entry, product_entry, broadcastTo_1b_ab_apply, broadcast_apply]
  simp only [truncf_apply, shapeCast_self]
  rw [show (Scalar.ofBits (F := Ideal) .f32 0x00000000#32 : EReal) = 0 from Ideal.ofBits_zero_f32]

end Cert.KernelIdeal.Body

end
-- ==== Proof.WindowArrays.lean ====
/-
  The five arrays the kernel's region reads, as the host operations before it leave them.

  Both programs begin with the same host computation: the two edge-wise sums of gathered feature rows, the
  degree count, the quotient by max(degree, 1) — the neighbour mean — and the gathers of the feature rows and of
  the mean rows by `nodes`. Nothing in this proof looks inside it: the gathered self rows and the gathered mean
  rows are carried as two arrays `selfRows`, `meanRows` of the arguments, the very stages the reference's own
  run is read through, and the kernel's first two windows stage exactly these terms (`self_rows`, `mean_rows`).
  The other three windows stage pieces of the weight and the bias laid out for the body: window 2 the transpose
  of the weight's columns 0..63, window 3 the transpose of its columns 64..127, window 4 the bias as one row.
  Read at an index these are entries of `W` and `b` themselves (`weight_lo`, `weight_hi`, `bias_row`).
-/
import proofs.«178424_j34557306863777_1_alg».proof.Proof.Gen.KernelIdeal.Frame
import proofs.«178424_j34557306863777_1_alg».proof.Proof.Gen.ReferenceIdeal.Read
import proofs.«178424_j34557306863777_1_alg».proof.Proof.DenseLayer
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Windows

open Cert.KernelIdeal Cert.KernelIdeal.Gen Idealize.ShloMosaic Idealize.ShloMosaic.TcCoe Idealize.SL.Sem
open Idealize.ShloMosaic.StableHlo Idealize.ShloMosaic.ValueIdx
open Cert.Dense (lo hi)

/-- The feature rows gathered by `nodes`, of the arguments `nodes` and `features`. -/
abbrev selfRows (x0 : S100000.Idx → BitVec 32) (x1 : S100000x64.Idx → EReal) : S100000x64.Idx → EReal :=
  Cert.ReferenceIdeal.Read.val_main_v44 (F := Ideal) x0 x1

/-- The neighbour-mean rows gathered by `nodes`, of the arguments `nodes`, `features` and `edge_index`. -/
abbrev meanRows (x0 : S100000.Idx → BitVec 32) (x1 : S100000x64.Idx → EReal) (x2 : S2x1000000.Idx → BitVec 32) :
    S100000x64.Idx → EReal :=
  Cert.ReferenceIdeal.Read.val_main_v51 (F := Ideal) x0 x1 x2

variable (m : (ℓ : Loc nD τ sig) → Buf (Elt Ideal) ℓ)

set_option maxRecDepth 8192 in
set_option maxHeartbeats 30000000 in
/-- Window 0's array is the gathered self rows. -/
theorem self_rows (c : Dev nD) :
    (V m c main_v44 : S100000x64.Idx → EReal)
      = selfRows (m ((c : Thread nD τ).loc main_arg0)) (m ((c : Thread nD τ).loc main_arg1)) := by
  dsimp only [Gen.V, Gen.hostOps0]; after_results_simp <;> rfl

set_option maxRecDepth 8192 in
set_option maxHeartbeats 30000000 in
/-- Window 1's array is the gathered neighbour-mean rows. -/
theorem mean_rows (c : Dev nD) :
    (V m c main_v51 : S100000x64.Idx → EReal)
      = meanRows (m ((c : Thread nD τ).loc main_arg0)) (m ((c : Thread nD τ).loc main_arg1)) (m ((c : Thread nD τ).loc main_arg2)) := by
  dsimp only [Gen.V, Gen.hostOps0]; after_results_simp <;> rfl

set_option maxRecDepth 8192 in
set_option maxHeartbeats 30000000 in
/-- Window 2's array at (k, q) is the weight at (q, k): the first 64 columns, transposed. -/
theorem weight_lo (c : Dev nD) (k : Fin 64) (q : Fin 128) :
    (V m c main_v53 : S64x128.Idx → EReal) (ix2 k q) = (m ((c : Thread nD τ).loc main_arg3) : S128x128.Idx → EReal) (ix2 q (lo k)) := by
  have e : (V m c main_v53 : S64x128.Idx → EReal)
      = transpose S64x128 [1, 0] (extractStridedSlice S128x64 ![0, 0] (m ((c : Thread nD τ).loc main_arg3) : S128x128.Idx → EReal) slices_S128x128_S128x64_0_0) transposes_S128x64_S64x128_1_0 := by
    dsimp only [Gen.V, Gen.hostOps0]; after_results_simp <;> rfl
  rw [e, transpose_apply [1, 0] _ transposes_S128x64_S64x128_1_0 (ix2 k q) (ix2 q k) (fun b => match b with
      | ⟨0, _⟩ => rfl
      | ⟨1, _⟩ => rfl),
    extractStridedSlice_apply ![0, 0] _ slices_S128x128_S128x64_0_0 (ix2 q k) (ix2 q (lo k)) (fun a => match a with
      | ⟨0, _⟩ => by show q.val = 0 + q.val; omega
      | ⟨1, _⟩ => by show k.val = 0 + k.val; omega)]

set_option maxRecDepth 8192 in
set_option maxHeartbeats 30000000 in
/-- Window 3's array at (k, q) is the weight at (q, 64 + k): the last 64 columns, transposed. -/
theorem weight_hi (c : Dev nD) (k : Fin 64) (q : Fin 128) :
    (V m c main_v55 : S64x128.Idx → EReal) (ix2 k q) = (m ((c : Thread nD τ).loc main_arg3) : S128x128.Idx → EReal) (ix2 q (hi k)) := by
  have e : (V m c main_v55 : S64x128.Idx → EReal)
      = transpose S64x128 [1, 0] (extractStridedSlice S128x64 ![0, 64] (m ((c : Thread nD τ).loc main_arg3) : S128x128.Idx → EReal) slices_S128x128_S128x64_0_64) transposes_S128x64_S64x128_1_0 := by
    dsimp only [Gen.V, Gen.hostOps0]; after_results_simp <;> rfl
  rw [e, transpose_apply [1, 0] _ transposes_S128x64_S64x128_1_0 (ix2 k q) (ix2 q k) (fun b => match b with
      | ⟨0, _⟩ => rfl
      | ⟨1, _⟩ => rfl),
    extractStridedSlice_apply ![0, 64] _ slices_S128x128_S128x64_0_64 (ix2 q k) (ix2 q (hi k)) (fun a => match a with
      | ⟨0, _⟩ => by show q.val = 0 + q.val; omega
      | ⟨1, _⟩ => by show 64 + k.val = 64 + k.val; rfl)]

set_option maxRecDepth 8192 in
set_option maxHeartbeats 30000000 in
/-- Window 4's array is the bias laid out as one row. -/
theorem bias_row (c : Dev nD) (q : Fin 128) :
    (V m c main_v56 : S1x128.Idx → EReal) (ix2 (0 : Fin 1) q) = (m ((c : Thread nD τ).loc main_arg4) : S128.Idx → EReal) (ix1 q) := by
  have e : (V m c main_v56 : S1x128.Idx → EReal)
      = shapeCast S1x128 (m ((c : Thread nD τ).loc main_arg4) : S128.Idx → EReal) shapeCasts_S128_S1x128 := by
    dsimp only [Gen.V, Gen.hostOps0]; after_results_simp <;> rfl
  rw [e]
  exact shapeCast_a_1a_apply _ shapeCasts_S128_S1x128 (0 : Fin 1) q

end Cert.KernelIdeal.Windows

end
-- ==== Proof.KernelArray.lean ====
/-
  The kernel's result array, whole: every entry is the dense layer's.

  The grid has 20 points; point `t` reads rows 5000 t .. 5000 t + 4999 of the two row arrays (and, at every
  point, the whole of the two weight halves and of the bias row), and writes back rows 5000 t .. 5000 t + 4999
  of the result. So entry (p, q) of the block that point `t` writes back is the body's stored value at (p, q)
  over those blocks, which is the layer's entry (5000 t + p, q) of the arrays themselves (`flushed_eq`). Row `r`
  of the result lies in the block of point `r / 5000`, so the 20 blocks cover the array (`cover`), and after the
  run the array holds the layer at every index (`final`, `run`).
-/
import proofs.«178424_j34557306863777_1_alg».proof.Proof.Gen.KernelIdeal.Value
import proofs.«178424_j34557306863777_1_alg».proof.Proof.DenseLayer
import proofs.«178424_j34557306863777_1_alg».proof.Proof.BodyEntry
import proofs.«178424_j34557306863777_1_alg».proof.Proof.WindowArrays

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Dense (lo hi)

variable (m : (ℓ : Loc nD τ sig) → Buf (Elt Ideal) ℓ) (ρ : Dev nD → PrngReg)

theorem hz : (![0, 0] : Fin 2 → Nat) = fun _ => 0 := funext fun a => by fin_cases a <;> rfl

/-- The dense layer of device `c`'s argument arrays. -/
abbrev result (c : Dev nD) : S100000x128.Idx → EReal :=
  Cert.Dense.layer
    (Windows.selfRows (m ((c : Thread nD τ).loc main_arg0)) (m ((c : Thread nD τ).loc main_arg1)))
    (Windows.meanRows (m ((c : Thread nD τ).loc main_arg0)) (m ((c : Thread nD τ).loc main_arg1)) (m ((c : Thread nD τ).loc main_arg2)))
    (m ((c : Thread nD τ).loc main_arg3)) (m ((c : Thread nD τ).loc main_arg4))

/-- The block index of every window at every point, decided over the 20 points: the row windows and the
    result move with the point along the rows; the weight halves and the bias stay at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `5000 t + p` of the array. -/
def row (t : Fin cfg0.N) (p : Fin 5000) : Fin 100000 :=
  ⟨t.val * 5000 + p.val, by
    have ht : t.val < 20 := lt_of_lt_of_eq t.isLt (N_0 : cfg0.N = 20)
    have := p.isLt; omega⟩

theorem row_val (t : Fin cfg0.N) (p : Fin 5000) : (row t p).val = t.val * 5000 + p.val := rfl

/-! ## A block of any array, entry by entry

Each lemma reads a window's block at point `t` off an ARBITRARY array `X` of the window's shape: the statements
are about the index maps only. -/

/-- Entry (p, k) of point `t`'s block of a row array is entry (5000 t + p, k) of the array (window 0). -/
theorem rows_block0 (X : S100000x64.Idx → EReal) (t : Fin cfg0.N) (p : Fin 5000) (k : Fin 64) :
    ((cfg0.win 0).blk t).view.read (Elt Ideal) X (ix2 p k) = X (ix2 (row t p) k) := by
  obtain ⟨e0, e1, -⟩ := block_index t
  show X (((cfg0.win 0).blk t).view.emb (ix2 p k)) = _
  refine congrArg X (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- The same for window 1. -/
theorem rows_block1 (X : S100000x64.Idx → EReal) (t : Fin cfg0.N) (p : Fin 5000) (k : Fin 64) :
    ((cfg0.win 1).blk t).view.read (Elt Ideal) X (ix2 p k) = X (ix2 (row t p) k) := by
  obtain ⟨-, -, e0, e1, -⟩ := block_index t
  show X (((cfg0.win 1).blk t).view.emb (ix2 p k)) = _
  refine congrArg X (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- Windows 2 and 3 hold their whole 64 × 128 array at every point. -/
theorem half_block2 (X : S64x128.Idx → EReal) (t : Fin cfg0.N) (k : Fin 64) (q : Fin 128) :
    ((cfg0.win 2).blk t).view.read (Elt Ideal) X (ix2 k q) = X (ix2 k q) := by
  obtain ⟨-, -, -, -, e0, e1, -⟩ := block_index t
  show X (((cfg0.win 2).blk t).view.emb (ix2 k q)) = _
  refine congrArg X (funext fun a => Fin.ext ?_)
  match a with
  | ⟨0, _⟩ => show win0_2.index t (0 : Fin 2) * 64 + 1 * k.val = k.val; omega
  | ⟨1, _⟩ => show win0_2.index t (1 : Fin 2) * 128 + 1 * q.val = q.val; omega

theorem half_block3 (X : S64x128.Idx → EReal) (t : Fin cfg0.N) (k : Fin 64) (q : Fin 128) :
    ((cfg0.win 3).blk t).view.read (Elt Ideal) X (ix2 k q) = X (ix2 k q) := by
  obtain ⟨-, -, -, -, -, -, e0, e1, -⟩ := block_index t
  show X (((cfg0.win 3).blk t).view.emb (ix2 k q)) = _
  refine congrArg X (funext fun a => Fin.ext ?_)
  match a with
  | ⟨0, _⟩ => show win0_3.index t (0 : Fin 2) * 64 + 1 * k.val = k.val; omega
  | ⟨1, _⟩ => show win0_3.index t (1 : Fin 2) * 128 + 1 * q.val = q.val; omega

/-- Window 4 holds its whole 1 × 128 row at every point. -/
theorem bias_block (X : S1x128.Idx → EReal) (t : Fin cfg0.N) (q : Fin 128) :
    ((cfg0.win 4).blk t).view.read (Elt Ideal) X (ix2 (0 : Fin 1) q) = X (ix2 (0 : Fin 1) q) := by
  obtain ⟨-, -, -, -, -, -, -, -, e0, e1, -⟩ := block_index t
  show X (((cfg0.win 4).blk t).view.emb (ix2 (0 : Fin 1) q)) = _
  refine congrArg X (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry (p, q) of point `t`'s block of a result-shaped array is entry (5000 t + p, q) of the array (window 5). -/
theorem out_block (X : S100000x128.Idx → EReal) (t : Fin cfg0.N) (p : Fin 5000) (q : Fin 128) :
    ((cfg0.win 5).blk t).view.read (Elt Ideal) X (ix2 p q) = X (ix2 (row t p) q) := by
  obtain ⟨-, -, -, -, -, -, -, -, -, -, e0, e1⟩ := block_index t
  show X (((cfg0.win 5).blk t).view.emb (ix2 p q)) = _
  refine congrArg X (funext fun a => Fin.ext ?_)
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## The input blocks at a point, entry by entry

The lemmas above at the arrays the region is entered with. -/

theorem read_self (c : Dev nD) (t : Fin cfg0.N) (p : Fin 5000) (k : Fin 64) :
    iblk m c 0 t (ix2 p k)
      = Windows.selfRows (m ((c : Thread nD τ).loc main_arg0)) (m ((c : Thread nD τ).loc main_arg1)) (ix2 (row t p) k) := by
  unfold iblk
  exact (rows_block0 _ t p k).trans (congrFun (Windows.self_rows m c) _)

theorem read_mean (c : Dev nD) (t : Fin cfg0.N) (p : Fin 5000) (k : Fin 64) :
    iblk m c 1 t (ix2 p k)
      = Windows.meanRows (m ((c : Thread nD τ).loc main_arg0)) (m ((c : Thread nD τ).loc main_arg1)) (m ((c : Thread nD τ).loc main_arg2)) (ix2 (row t p) k) := by
  unfold iblk
  exact (rows_block1 _ t p k).trans (congrFun (Windows.mean_rows m c) _)

theorem read_weight_lo (c : Dev nD) (t : Fin cfg0.N) (k : Fin 64) (q : Fin 128) :
    iblk m c 2 t (ix2 k q) = (m ((c : Thread nD τ).loc main_arg3) : S128x128.Idx → EReal) (ix2 q (lo k)) := by
  unfold iblk
  exact (half_block2 _ t k q).trans (Windows.weight_lo m c k q)

theorem read_weight_hi (c : Dev nD) (t : Fin cfg0.N) (k : Fin 64) (q : Fin 128) :
    iblk m c 3 t (ix2 k q) = (m ((c : Thread nD τ).loc main_arg3) : S128x128.Idx → EReal) (ix2 q (hi k)) := by
  unfold iblk
  exact (half_block3 _ t k q).trans (Windows.weight_hi m c k q)

theorem read_bias (c : Dev nD) (t : Fin cfg0.N) (q : Fin 128) :
    iblk m c 4 t (ix2 (0 : Fin 1) q) = (m ((c : Thread nD τ).loc main_arg4) : S128.Idx → EReal) (ix1 q) := by
  unfold iblk
  exact (bias_block _ t q).trans (Windows.bias_row m c q)

/-! ## What a point writes back, the cover, and the array after the run -/

/-- WHAT POINT `t` WRITES BACK is block `t` of the layer of the argument arrays. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  refine (Body.stored_entry (iblk m c 0 t) (iblk m c 1 t) (iblk m c 2 t) (iblk m c 3 t) (iblk m c 4 t) p q).trans ?_
  simp only [read_self m c t, read_mean m c t, read_weight_lo m c t, read_weight_hi m c t, read_bias m c t]
  exact (out_block (result m c) t p q).symm

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v57).slice (win0_5.rect t)).set ↔ _
  rw [View.set_slice_whole, Rect.mem_set_unit]
  exact Iff.rfl

/-- Row `r` of the result is in the block of point `r / 5000`: the blocks cover the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := block_index ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- THE ARRAY after the run: the dense layer of the argument arrays, at every index. -/
theorem final (c : Dev nD) : (dats m 0 c).arrAt 5 cfg0.N = result m c :=
  (dats m 0 c).arrAt_eq_of_cover 5 (result m c) (fun t _ => flushed_eq m c t) cover

/-- The kernel's run: the result array ends at the dense layer of the arguments, the arguments unchanged. -/
theorem run : θ_run defs (onTc (τ := τ) (main (F := Ideal))) ⟨m, fun _ => 0, ρ⟩ fun r => ∀ c : Dev nD,
      r.2.mem ((c : Thread nD τ).loc main_v57) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.ReferenceLayer.lean ====
/-
  The reference's result is the dense layer of the same arrays.

  After the shared host computation the reference joins the self rows and the neighbour-mean rows side by side
  into one 100000 × 128 array, contracts its 128 columns against the transposed weight, adds the bias broadcast
  down the rows and takes the maximum with zero. Column `c` of the joined array is column `c` of the self rows for
  `c < 64` and column `c - 64` of the mean rows otherwise (`joined_lo`, `joined_hi`), and the transposed weight at
  (c, q) is the weight at (q, c). Splitting the sum over the 128 columns into its two halves (`sum_halves`) gives
  the layer's entry term for term.
-/
import proofs.«178424_j34557306863777_1_alg».proof.Proof.Gen.ReferenceIdeal.Read
import proofs.«178424_j34557306863777_1_alg».proof.Proof.DenseLayer
import Idealize.ShloMosaic.Lib.ValueIdx
import Idealize.ShloMosaic.Lib.Pipeline.Value
import Idealize.ShloMosaic.PureOps.Ideal.Laws

noncomputable section

open scoped BigOperators

namespace Cert.ReferenceIdeal.Layer

open Cert.ReferenceIdeal Cert.ReferenceIdeal.Gen Cert.ReferenceIdeal.Read Idealize.ShloMosaic Idealize.ShloMosaic.ValueIdx
open Cert.Dense (lo hi)

variable (x0 : (⟨S100000, .i32⟩ : BufTy).Contents (Elt Ideal)) (x1 : (⟨S100000x64, .f32⟩ : BufTy).Contents (Elt Ideal))
  (x2 : (⟨S2x1000000, .i32⟩ : BufTy).Contents (Elt Ideal)) (x3 : (⟨S128x128, .f32⟩ : BufTy).Contents (Elt Ideal))
  (x4 : (⟨S128, .f32⟩ : BufTy).Contents (Elt Ideal))

/-- A column of the first half of the joined array is that column of the self rows. -/
theorem joined_lo (p : Fin 100000) (k : Fin 64) :
    val_main_v52 (F := Ideal) x0 x1 x2 (ix2 p (lo k)) = val_main_v44 (F := Ideal) x0 x1 (ix2 p k) := by
  unfold val_main_v52
  exact concatenate_pair_apply_left 1 _ _ concatenates_S100000x64_S100000x64_S100000x128_d1 (ix2 p (lo k)) rfl (ix2 p k)
    (fun b => match b with
      | ⟨0, _⟩ => rfl
      | ⟨1, _⟩ => rfl)

/-- A column of the second half of the joined array is that column, less 64, of the mean rows. -/
theorem joined_hi (p : Fin 100000) (k : Fin 64) :
    val_main_v52 (F := Ideal) x0 x1 x2 (ix2 p (hi k)) = val_main_v51 (F := Ideal) x0 x1 x2 (ix2 p k) := by
  unfold val_main_v52
  exact concatenate_pair_apply_right 1 _ _ concatenates_S100000x64_S100000x64_S100000x128_d1 (ix2 p (hi k)) rfl rfl (ix2 p k)
    (fun b => match b with
      | ⟨0, _⟩ => fun _ => rfl
      | ⟨1, _⟩ => fun hb => absurd rfl hb)
    (by show k.val + 64 = 64 + k.val; omega)

/-- THE REFERENCE'S LAST STAGE is the dense layer of the gathered self rows, the gathered mean rows, the weight
    and the bias. -/
theorem result_eq :
    val_main_v58 (F := Ideal) x0 x1 x2 x3 x4
      = Cert.Dense.layer (val_main_v44 (F := Ideal) x0 x1) (val_main_v51 (F := Ideal) x0 x1 x2) x3 x4 := by
  funext i
  obtain ⟨p, q, rfl⟩ : ∃ (p : Fin 100000) (q : Fin 128), i = ix2 p q := ⟨i 0, i 1, eq_ix2 i⟩
  have hl : ∀ c : Fin 128, lidx_main_v54 (ix2 p q) c = ix2 p c := fun c => funext fun a => Fin.ext (by
    match a with
    | ⟨0, _⟩ => rfl
    | ⟨1, _⟩ => rfl)
  have hr : ∀ c : Fin 128, idx_main_v53 (ridx_main_v54 (ix2 p q) c) = ix2 q c := fun c => funext fun a => Fin.ext (by
    match a with
    | ⟨0, _⟩ => rfl
    | ⟨1, _⟩ => rfl)
  have hb : idx_main_v55 (idx_main_v56 (ix2 p q)) = ix1 q := funext fun a => Fin.ext (by
    match a with
    | ⟨0, _⟩ => rfl)
  rw [val_main_v58_apply, val_main_v57_apply, val_main_v54_apply, val_main_v56_apply, val_main_v55_apply,
    val_main_call0_v0_apply, val_main_call0_cst_apply, Cert.Dense.layer_apply]
  unfold Cert.Dense.entry
  rw [Cert.Dense.sum_halves]
  simp only [hl, hr, hb, val_main_v53_apply, joined_lo, joined_hi, Ideal.maximumf_def, Ideal.addf_def, Ideal.ofBits_def,
    Ideal.ofBits_zero_f32]

end Cert.ReferenceIdeal.Layer

end
-- ==== Proof.lean ====
/-
  A graph encoder layer: for every node, its own feature row and the mean of its neighbours' rows (over an
  undirected edge list: both endpoints of every edge count), joined side by side and passed through one dense
  layer with a bias and the positive part,

      out[r, q] = max ( Σ_{c<128} [ self[r, ·] | mean[r, ·] ][c] · W[q, c]  +  b[q] , 0 ).

  The two programs compute the self rows and the mean rows by the SAME host operations (gathers of feature rows
  along the edges, their scatter-sums into the nodes, the degree count, the quotient by max(degree, 1), and a
  final gather by `nodes`). They differ only in the dense layer: the reference joins the two 64-column arrays and
  contracts all 128 columns at once; the kernel, tiled into 20 blocks of 5000 rows, multiplies the self block by
  the transposed first 64 columns of `W` and the mean block by the transposed last 64 columns, adds the two
  products and the bias row, and takes the maximum with zero. Over the extended reals the two are equal entry by
  entry because a sum of 128 terms is the sum of its first 64 plus the sum of its last 64 — associativity and
  commutativity of addition only, so the equality holds for every input, finite or not.

  The modules: Proof/DenseLayer.lean states the layer as one function of four arrays and the splitting of the sum;
  Proof/BodyEntry.lean reads the kernel body's stored value at an entry of its block; Proof/WindowArrays.lean
  reads the five arrays the region is entered with; Proof/KernelArray.lean puts the 20 written blocks together into
  the whole result array; Proof/ReferenceLayer.lean reads the reference's last stage as the same layer. The frames
  of the two kernel programs and the reference's run are the generated ones. No rewrite separates the kernel from
  its exact-value reading, so that claim is `True`.
-/
import proofs.«178424_j34557306863777_1_alg».proof.Defs
import proofs.«178424_j34557306863777_1_alg».proof.Proof.Gen.Kernel
import proofs.«178424_j34557306863777_1_alg».proof.Proof.Gen.Kernel.Skeleton
import proofs.«178424_j34557306863777_1_alg».proof.Proof.Gen.Kernel.Launch
import proofs.«178424_j34557306863777_1_alg».proof.Proof.Gen.Kernel.Points
import proofs.«178424_j34557306863777_1_alg».proof.Proof.Gen.Kernel.Frame
import proofs.«178424_j34557306863777_1_alg».proof.Proof.Gen.KernelIdeal
import proofs.«178424_j34557306863777_1_alg».proof.Proof.Gen.KernelIdeal.Skeleton
import proofs.«178424_j34557306863777_1_alg».proof.Proof.Gen.KernelIdeal.Launch
import proofs.«178424_j34557306863777_1_alg».proof.Proof.Gen.KernelIdeal.Points
import proofs.«178424_j34557306863777_1_alg».proof.Proof.Gen.KernelIdeal.Frame
import proofs.«178424_j34557306863777_1_alg».proof.Proof.Gen.ReferenceIdeal
import proofs.«178424_j34557306863777_1_alg».proof.Proof.Gen.Pre_finite_inputs
import proofs.«178424_j34557306863777_1_alg».proof.Proof.Gen.KernelIdeal.Value
import proofs.«178424_j34557306863777_1_alg».proof.Proof.Gen.ReferenceIdeal.Run
import proofs.«178424_j34557306863777_1_alg».proof.Proof.Gen.ReferenceIdeal.Read
import proofs.«178424_j34557306863777_1_alg».proof.Proof.KernelArray
import proofs.«178424_j34557306863777_1_alg».proof.Proof.ReferenceLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact-value reading. -/
theorem preserves : Cert.preserves_Kernel_KernelIdeal := trivial

/-- From memories that agree on the five arguments, both programs end with the dense layer of the gathered self
    rows, the gathered mean rows, the weight and the bias: the kernel's array block by block
    (`Cert.KernelIdeal.Whole.run`), the reference's as its last stage (`Cert.ReferenceIdeal.Layer.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.Layer.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
